-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 45
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S1x128, .f32⟩
  | .hbm, ⟨44, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostArrays.lean ====
/-
  What the kernel's region finds in its four input arrays, as functions of the program's arguments.

  Both programs begin with the same host computation on the edge list: the two degree vectors by scatter-add of
  ones, their clamped inverse square roots, the source rows scaled, gathered along the edges and summed into the
  destination rows.  The aggregated rows and the destination normalizer are named here by the reference's own
  stages, never opened: the kernel's region reads the aggregated rows, the normalizer recast as a column, the
  weight matrix as launched, and the bias recast as a one-row matrix.
-/
import proofs.«101618_j52218212385050_2_alg».proof.Proof.Gen.KernelIdeal.Frame
import proofs.«101618_j52218212385050_2_alg».proof.Proof.Gen.ReferenceIdeal.Read

noncomputable section

namespace Cert.GcnLayer.HostArrays

open Idealize.ShloMosaic Idealize.ShloMosaic.TcCoe Idealize.SL.Sem
open Cert.KernelIdeal Cert.KernelIdeal.Gen

variable (m : (ℓ : Loc nD τ sig) → Buf (Elt Ideal) ℓ)

set_option maxHeartbeats 2000000 in
/-- The first window's array: the rows aggregated along the edges. -/
theorem aggregated (c : Dev nD) :
    (V m c main_v29 : S50000x128.Idx → EReal)
      = Cert.ReferenceIdeal.Read.val_main_v29 (F := Ideal) (m ((c : Thread nD τ).loc main_arg0)) (m ((c : Thread nD τ).loc main_arg1)) := by
  dsimp only [Gen.V, Gen.hostOps0]
  after_results_simp
  rfl

set_option maxHeartbeats 2000000 in
/-- The second window's array: the destination normalizer recast as a column. -/
theorem normalizer (c : Dev nD) :
    (V m c main_v30 : S50000x1.Idx → EReal)
      = shapeCast S50000x1 (Cert.ReferenceIdeal.Read.val_main_v16 (F := Ideal) (m ((c : Thread nD τ).loc main_arg1))) Facts₀.shapeCasts_S50000_S50000x1 := by
  dsimp only [Gen.V, Gen.hostOps0]
  after_results_simp
  rfl

set_option maxHeartbeats 2000000 in
/-- The fourth window's array: the bias recast as a one-row matrix. -/
theorem bias (c : Dev nD) :
    (V m c main_v31 : S1x128.Idx → EReal)
      = shapeCast S1x128 (m ((c : Thread nD τ).loc main_arg3)) Facts₀.shapeCasts_S128_S1x128 := by
  dsimp only [Gen.V, Gen.hostOps0]
  after_results_simp
  rfl

end Cert.GcnLayer.HostArrays

end
-- ==== Proof.Spec.lean ====
/-
  One dense layer of a graph convolution, entry by entry, on the extended reals.

  From the aggregated rows `A` (one row of 128 features per node), the destination normalizer as a column `N`,
  the weight matrix `W` and the bias as a one-row matrix `B`, entry `(r, j)` of the result is

      max ( Σ_q (A(r, q) · N(r, 0)) · W(q, j) + B(0, j) , 0 ).

  Both programs compute exactly this expression, in this association: the row is scaled before it meets the
  weights, the bias is added to the finished sum, and the rectifier is a maximum with the zero word.  No law of
  the extended reals beyond reading each operation at an entry is needed to join them.
-/
import Idealize.ShloMosaic.Lib.ValueIdx

noncomputable section

open scoped BigOperators

namespace Cert.GcnLayer

open Idealize.ShloMosaic Idealize.ShloMosaic.ValueIdx

/-- Entry `(r, j)` of the layer. -/
def layerAt (A : (⟨2, ![50000, 128]⟩ : Shape).Idx → EReal) (N : (⟨2, ![50000, 1]⟩ : Shape).Idx → EReal)
    (W : (⟨2, ![128, 128]⟩ : Shape).Idx → EReal) (B : (⟨2, ![1, 128]⟩ : Shape).Idx → EReal)
    (r : Fin 50000) (j : Fin 128) : EReal :=
  max ((∑ q : Fin 128, A (ix2 r q) * N (ix2 r (0 : Fin 1)) * W (ix2 q j)) + B (ix2 (0 : Fin 1) j))
    (Ideal.ofBits .f32 0x00000000#32)

/-- The layer as one function of the array index. -/
def layer (A : (⟨2, ![50000, 128]⟩ : Shape).Idx → EReal) (N : (⟨2, ![50000, 1]⟩ : Shape).Idx → EReal)
    (W : (⟨2, ![128, 128]⟩ : Shape).Idx → EReal) (B : (⟨2, ![1, 128]⟩ : Shape).Idx → EReal) :
    (⟨2, ![50000, 128]⟩ : Shape).Idx → EReal :=
  fun i => layerAt A N W B ⟨(i 0).val, idx2_lt0 i⟩ ⟨(i 1).val, idx2_lt1 i⟩

/-- The layer at an index whose coordinates are `r` and `j`. -/
theorem layer_apply (A : (⟨2, ![50000, 128]⟩ : Shape).Idx → EReal) (N : (⟨2, ![50000, 1]⟩ : Shape).Idx → EReal)
    (W : (⟨2, ![128, 128]⟩ : Shape).Idx → EReal) (B : (⟨2, ![1, 128]⟩ : Shape).Idx → EReal)
    (i : (⟨2, ![50000, 128]⟩ : Shape).Idx) (r : Fin 50000) (j : Fin 128) (h0 : (i 0).val = r.val) (h1 : (i 1).val = j.val) :
    layer A N W B i = layerAt A N W B r j := by
  unfold layer
  have e0 : (⟨(i 0).val, idx2_lt0 i⟩ : Fin 50000) = r := Fin.ext h0
  have e1 : (⟨(i 1).val, idx2_lt1 i⟩ : Fin 128) = j := Fin.ext h1
  rw [e0, e1]

end Cert.GcnLayer

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelBlock.lean ====
/-
  What the kernel body stores, entry by entry.

  The body multiplies its block of aggregated rows by the normalizer column broadcast along the features,
  multiplies the product with the weight matrix into a zero accumulator, adds the bias row broadcast down the
  rows and takes the maximum with zero.  The two roundings to the narrow format on the way into the matrix product
  are the identity on the extended reals.  So entry `(p, j)` of the stored block is the layer's expression of row `p`
  of the block, and when the block's row `p` is the array's row `r` it is entry `(r, j)` of the layer.
-/
import proofs.«101618_j52218212385050_2_alg».proof.Proof.Gen.KernelIdeal.Skeleton
import proofs.«101618_j52218212385050_2_alg».proof.Proof.Spec
import proofs.«101618_j52218212385050_2_alg».proof.Proof.LibPlainDot
import proofs.«101618_j52218212385050_2_alg».proof.Proof.LibKeepdims
import Idealize.ShloMosaic.Lib.Pipeline.Value
import Idealize.ShloMosaic.Lib.ValueLayout

noncomputable section

open scoped BigOperators

namespace Cert.GcnLayer

open Idealize.ShloMosaic Idealize.ShloMosaic.ValueIdx
open Cert.KernelIdeal Cert.KernelIdeal.Gen

/-- Entry `(p, j)` of the stored block, from the four loaded blocks. -/
theorem stored_apply (x0 : Vec Ideal S5000x128 .f32) (x1 : Vec Ideal S5000x1 .f32) (x2 : Vec Ideal S128x128 .f32)
    (x3 : Vec Ideal S1x128 .f32) (p : Fin 5000) (j : Fin 128) :
    k0_pay1 (F := Ideal) x0 x1 x2 x3 (ix2 p j)
      = max ((∑ q : Fin 128, x0 (ix2 p q) * x1 (ix2 p (0 : Fin 1)) * x2 (ix2 q j)) + x3 (ix2 (0 : Fin 1) j))
          (Ideal.ofBits .f32 0x00000000#32) := by
  unfold k0_pay1
  rw [maximumf_apply, addf_apply, broadcast_apply]
  refine congrArg₂ max (congrArg₂ (· + ·) ?_ ?_) rfl
  · refine (Cert.PlainDot.matmul_zero_ix2 _ rfl none _ _ p j).trans ?_
    refine Finset.sum_congr rfl fun q _ => ?_
    rw [truncf_apply, truncf_apply, mulf_apply, shapeCast_self, shapeCast_self]
    rw [Cert.LibKeepdims.broadcastTo_a1_ab_apply]
  · rw [shapeCast_self]
    exact broadcastTo_1b_ab_apply _ _ p j

/-- The stored block's entry `(p, j)` is the layer's entry `(r, j)` when row `p` of the block of aggregated rows
    and of the normalizer column is row `r` of the arrays, and the weight and bias blocks are the arrays. -/
theorem stored_eq_layerAt (A : (⟨2, ![50000, 128]⟩ : Shape).Idx → EReal) (N : (⟨2, ![50000, 1]⟩ : Shape).Idx → EReal)
    (W : (⟨2, ![128, 128]⟩ : Shape).Idx → EReal) (B : (⟨2, ![1, 128]⟩ : Shape).Idx → EReal)
    (x0 : Vec Ideal S5000x128 .f32) (x1 : Vec Ideal S5000x1 .f32) (x2 : Vec Ideal S128x128 .f32)
    (x3 : Vec Ideal S1x128 .f32) (p : Fin 5000) (r : Fin 50000) (j : Fin 128)
    (h0 : ∀ q : Fin 128, x0 (ix2 p q) = A (ix2 r q)) (h1 : x1 (ix2 p (0 : Fin 1)) = N (ix2 r (0 : Fin 1)))
    (h2 : ∀ q : Fin 128, x2 (ix2 q j) = W (ix2 q j)) (h3 : x3 (ix2 (0 : Fin 1) j) = B (ix2 (0 : Fin 1) j)) :
    k0_pay1 (F := Ideal) x0 x1 x2 x3 (ix2 p j) = layerAt A N W B r j := by
  rw [stored_apply, h1, h3]
  unfold layerAt
  refine congrArg₂ max (congrArg₂ (· + ·) (Finset.sum_congr rfl fun q _ => ?_) rfl) rfl
  rw [h0 q, h2 q]

end Cert.GcnLayer

end
-- ==== Proof.KernelArray.lean ====
/-
  From the blocks the kernel writes back to the whole result array.

  The grid has ten points.  Point `t` reads rows `5000 t … 5000 t + 4999` of the aggregated rows and of the
  normalizer column, the whole weight matrix and the whole bias row, and writes back rows `5000 t … 5000 t + 4999`
  of the result.  Row `p` of what it writes is the layer's row `5000 t + p` of the arrays the region found, so
  every point writes a block of ONE function of those arrays; the ten blocks cover the 50000 rows (row `r` is in
  the block of point `r / 5000`), hence the result array ends holding that function.
-/
import proofs.«101618_j52218212385050_2_alg».proof.Proof.Gen.KernelIdeal.Value
import proofs.«101618_j52218212385050_2_alg».proof.Proof.KernelBlock

noncomputable section

namespace Cert.GcnLayer.KernelArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- The block index of each window at each of the ten points: the row-blocked windows move with the point, the
    weight and bias windows stay at the origin. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer of the four arrays as the region finds them. -/
abbrev result (c : Dev nD) : S50000x128.Idx → EReal :=
  layer (V m c main_v29) (V m c main_v30) (V m c main_arg2) (V m c main_v31)

/-- Row `p` of block `t` of ANY array of 50000 rows of 128 is the array's row `5000 t + p`. -/
theorem read_rows (X : S50000x128.Idx → EReal) (t : Fin cfg0.N) (p : Fin 5000) (q : Fin 128) (r : Fin 50000)
    (hr : r.val = t.val * 5000 + p.val) :
    (((cfg0.win 0).blk t).view.read (Elt Ideal) X : S5000x128.Idx → EReal) (ix2 p q) = X (ix2 r q) := by
  obtain ⟨a0, a1, -⟩ := block_indices t
  show X (((cfg0.win 0).blk t).view.emb (ix2 p q)) = _
  refine congrArg X (funext fun a => Fin.ext ?_)
  match a with
  | ⟨0, _⟩ => show win0_0.index t (0 : Fin 2) * 5000 + 1 * p.val = r.val; rw [a0, hr]; omega
  | ⟨1, _⟩ => show win0_0.index t (1 : Fin 2) * 128 + 1 * q.val = q.val; rw [a1]; omega

/-- Entry `p` of block `t` of ANY column of 50000 entries is the column's entry `5000 t + p`. -/
theorem read_column (X : S50000x1.Idx → EReal) (t : Fin cfg0.N) (p : Fin 5000) (r : Fin 50000)
    (hr : r.val = t.val * 5000 + p.val) :
    (((cfg0.win 1).blk t).view.read (Elt Ideal) X : S5000x1.Idx → EReal) (ix2 p (0 : Fin 1)) = X (ix2 r (0 : Fin 1)) := by
  obtain ⟨-, -, b0, b1, -⟩ := block_indices t
  show X (((cfg0.win 1).blk t).view.emb (ix2 p (0 : Fin 1))) = _
  refine congrArg X (funext fun a => Fin.ext ?_)
  match a with
  | ⟨0, _⟩ => show win0_1.index t (0 : Fin 2) * 5000 + 1 * p.val = r.val; rw [b0, hr]; omega
  | ⟨1, _⟩ => show win0_1.index t (1 : Fin 2) * 1 + 1 * 0 = 0; rw [b1]

/-- Every point's block of ANY 128 by 128 matrix is the matrix. -/
theorem read_weights (X : S128x128.Idx → EReal) (t : Fin cfg0.N) (q j : Fin 128) :
    (((cfg0.win 2).blk t).view.read (Elt Ideal) X : S128x128.Idx → EReal) (ix2 q j) = X (ix2 q j) := by
  obtain ⟨-, -, -, -, w0, w1, -⟩ := block_indices t
  show X (((cfg0.win 2).blk t).view.emb (ix2 q j)) = _
  refine congrArg X (funext fun a => Fin.ext ?_)
  match a with
  | ⟨0, _⟩ => show win0_2.index t (0 : Fin 2) * 128 + 1 * q.val = q.val; rw [w0]; omega
  | ⟨1, _⟩ => show win0_2.index t (1 : Fin 2) * 128 + 1 * j.val = j.val; rw [w1]; omega

/-- Every point's block of ANY one-row matrix of 128 entries is the row. -/
theorem read_bias (X : S1x128.Idx → EReal) (t : Fin cfg0.N) (j : Fin 128) :
    (((cfg0.win 3).blk t).view.read (Elt Ideal) X : S1x128.Idx → EReal) (ix2 (0 : Fin 1) j) = X (ix2 (0 : Fin 1) j) := by
  obtain ⟨-, -, -, -, -, -, s0, s1, -⟩ := block_indices t
  show X (((cfg0.win 3).blk t).view.emb (ix2 (0 : Fin 1) j)) = _
  refine congrArg X (funext fun a => Fin.ext ?_)
  match a with
  | ⟨0, _⟩ => show win0_3.index t (0 : Fin 2) * 1 + 1 * 0 = 0; rw [s0]
  | ⟨1, _⟩ => show win0_3.index t (1 : Fin 2) * 128 + 1 * j.val = j.val; rw [s1]; omega

/-- Row `p` of point `t`'s block of aggregated rows is row `5000 t + p` of the array the region found. -/
theorem rows_block (c : Dev nD) (t : Fin cfg0.N) (p : Fin 5000) (q : Fin 128) (r : Fin 50000)
    (hr : r.val = t.val * 5000 + p.val) :
    (iblk m c 0 t : S5000x128.Idx → EReal) (ix2 p q) = (V m c main_v29 : S50000x128.Idx → EReal) (ix2 r q) := by
  unfold iblk
  exact read_rows _ t p q r hr

/-- Entry `p` of point `t`'s block of the normalizer column is entry `5000 t + p` of the column. -/
theorem column_block (c : Dev nD) (t : Fin cfg0.N) (p : Fin 5000) (r : Fin 50000)
    (hr : r.val = t.val * 5000 + p.val) :
    (iblk m c 1 t : S5000x1.Idx → EReal) (ix2 p (0 : Fin 1)) = (V m c main_v30 : S50000x1.Idx → EReal) (ix2 r (0 : Fin 1)) := by
  unfold iblk
  exact read_column _ t p r hr

/-- Every point's weight block is the weight matrix. -/
theorem weights_block (c : Dev nD) (t : Fin cfg0.N) (q j : Fin 128) :
    (iblk m c 2 t : S128x128.Idx → EReal) (ix2 q j) = (V m c main_arg2 : S128x128.Idx → EReal) (ix2 q j) := by
  unfold iblk
  exact read_weights _ t q j

/-- Every point's bias block is the bias row. -/
theorem bias_block (c : Dev nD) (t : Fin cfg0.N) (j : Fin 128) :
    (iblk m c 3 t : S1x128.Idx → EReal) (ix2 (0 : Fin 1) j) = (V m c main_v31 : S1x128.Idx → EReal) (ix2 (0 : Fin 1) j) := by
  unfold iblk
  exact read_bias _ t j

/-- A block `X` whose row `p` is row `5000 t + p` of ANY array `R` of 50000 rows is what point `t`'s output block
    reads of `R`. -/
theorem block_of_array (R : S50000x128.Idx → EReal) (X : S5000x128.Idx → EReal) (t : Fin cfg0.N)
    (h : ∀ (p : Fin 5000) (j : Fin 128) (r : Fin 50000), r.val = t.val * 5000 + p.val → X (ix2 p j) = R (ix2 r j)) :
    (cfg0.win 4).cut (grid0.coords t) X = ((cfg0.win 4).blk t).view.read (Elt Ideal) R := by
  obtain ⟨-, -, -, -, -, -, -, -, o0, o1⟩ := block_indices t
  have ht : t.val < 10 := lt_of_lt_of_eq t.isLt N_0
  funext y
  obtain ⟨p, j, rfl⟩ : ∃ (p : Fin 5000) (j : Fin 128), y = ix2 p j := ⟨y 0, y 1, eq_ix2 y⟩
  have hp : p.val < 5000 := p.isLt
  show X (ix2 p j) = R (((cfg0.win 4).blk t).view.emb (ix2 p j))
  refine (h p j ⟨t.val * 5000 + p.val, by omega⟩ rfl).trans (congrArg R (funext fun a => Fin.ext ?_))
  match a with
  | ⟨0, _⟩ => show t.val * 5000 + p.val = win0_4.index t (0 : Fin 2) * 5000 + 1 * p.val; rw [o0]; omega
  | ⟨1, _⟩ => show j.val = win0_4.index t (1 : Fin 2) * 128 + 1 * j.val; rw [o1]; omega

/-- What point `t` writes back is block `t` of the layer of the arrays the region found. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero origin]
  simp only [View.ld_unit_zero (S := S5000x128) origin, View.ld_unit_zero (S := S5000x1) origin,
    View.ld_unit_zero (S := S128x128) origin, View.ld_unit_zero (S := S1x128) origin]
  refine block_of_array (result m c) _ t fun p j r hr => ?_
  refine (stored_eq_layerAt (V m c main_v29) (V m c main_v30) (V m c main_arg2) (V m c main_v31)
    (iblk m c 0 t) (iblk m c 1 t) (iblk m c 2 t) (iblk m c 3 t) p r j
    (fun q => rows_block m c t p q r hr) (column_block m c t p r hr)
    (fun q => weights_block m c t q j) (bias_block m c t j)).trans
    (layer_apply (V m c main_v29) (V m c main_v30) (V m c main_arg2) (V m c main_v31) (ix2 r j) r j rfl rfl).symm

/-- An index of the result array is in point `t`'s block iff each coordinate is in the block's range. -/
theorem mem_block (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v32).slice (win0_4.rect t)).set ↔ _
  rw [View.set_slice_whole, Rect.mem_set_unit]
  exact Iff.rfl

/-- Row `r` of the result lies in the block of point `r / 5000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_4 _, ?_⟩
  rw [mem_block]
  obtain ⟨-, -, -, -, -, -, -, -, o0, o1⟩ := block_indices ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [o0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [o1]; omega

/-- The result array after the run: the layer of the arrays the region found. -/
theorem final (c : Dev nD) : (dats m 0 c).arrAt 4 cfg0.N = result m c :=
  (dats m 0 c).arrAt_eq_of_cover 4 (result m c) (fun t _ => flushed_eq m c t) covered

/-- The kernel's run: the result array at the layer of the region's arrays, the arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.GcnLayer.KernelArray

end
-- ==== Proof.Reference.lean ====
/-
  The reference computes the layer.

  After the shared host computation the reference scales the aggregated rows by the destination normalizer
  (broadcast first to a column, then along the features), multiplies with the weight matrix, adds the bias
  (broadcast first to a one-row matrix, then down the rows) and takes the maximum with a zero splat.  Read at
  entry `(r, j)` that is the layer's expression of the aggregated rows, the normalizer, the weights and the bias,
  whatever column `N` and one-row matrix `B` hold the normalizer's and the bias's entries.
-/
import proofs.«101618_j52218212385050_2_alg».proof.Proof.Gen.ReferenceIdeal.Read
import proofs.«101618_j52218212385050_2_alg».proof.Proof.Spec

noncomputable section

open scoped BigOperators

namespace Cert.GcnLayer.Reference

open Idealize.ShloMosaic Idealize.ShloMosaic.ValueIdx
open Cert.ReferenceIdeal Cert.ReferenceIdeal.Read

/-- The reference's last stage is the layer of its aggregated rows, of any column holding its destination
    normalizer, of the weight matrix, and of any one-row matrix holding the bias. -/
theorem reference_is_layer
    (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (N : (⟨2, ![50000, 1]⟩ : Shape).Idx → EReal) (B : (⟨2, ![1, 128]⟩ : Shape).Idx → EReal)
    (hN : ∀ r : Fin 50000, N (ix2 r (0 : Fin 1)) = val_main_v16 (F := Ideal) x1 (ix1 r))
    (hB : ∀ j : Fin 128, B (ix2 (0 : Fin 1) j) = x3 (ix1 j)) :
    val_main_v38 (F := Ideal) x0 x1 x2 x3 = layer (val_main_v29 (F := Ideal) x0 x1) N x2 B := by
  funext i
  obtain ⟨r, j, rfl⟩ : ∃ (r : Fin 50000) (j : Fin 128), i = ix2 r j := ⟨i 0, i 1, eq_ix2 i⟩
  have el : ∀ q : Fin 128, lidx_main_v33 (ix2 r j) q = ix2 r q := fun q =>
    funext fun a => Fin.ext (by match a with | ⟨0, _⟩ => rfl | ⟨1, _⟩ => rfl)
  have er : ∀ q : Fin 128, ridx_main_v33 (ix2 r j) q = ix2 q j := fun q =>
    funext fun a => Fin.ext (by match a with | ⟨0, _⟩ => rfl | ⟨1, _⟩ => rfl)
  have en : ∀ q : Fin 128, idx_main_v30 (idx_main_v31 (ix2 r q)) = ix1 r := fun q =>
    funext fun a => Fin.ext (by match a with | ⟨0, _⟩ => rfl)
  have eb : idx_main_v34 (idx_main_v35 (ix2 r j)) = ix1 j :=
    funext fun a => Fin.ext (by match a with | ⟨0, _⟩ => rfl)
  rw [layer_apply _ _ _ _ (ix2 r j) r j rfl rfl]
  unfold layerAt
  rw [val_main_v38_apply, val_main_v36_apply, val_main_v33_apply, val_main_v35_apply, val_main_v34_apply,
    val_main_v37_apply, val_main_cst_6_apply, Ideal.maximumf_def, Ideal.addf_def, Ideal.ofBits_def, eb, hB]
  refine congrArg₂ max (congrArg₂ (· + ·) (Finset.sum_congr rfl fun q _ => ?_) rfl) rfl
  rw [el q, er q, val_main_v32_apply, val_main_v31_apply, val_main_v30_apply, en q, hN, Ideal.mulf_def]

end Cert.GcnLayer.Reference

end
-- ==== Proof.lean ====
/-
  A graph-convolution layer: the kernel's fused dense stage against the plain reference.

  Both programs start with the same host computation on the edge list — out- and in-degrees by scatter-add of ones,
  their inverse square roots clamped below at one, the node features scaled by the source normalizer, gathered
  along the edges and summed into the destination rows — and then apply one dense layer to the aggregated rows
  `A`, with the destination normalizer `n`, the weights `W` and the bias `b`:

      out(r, j) = max ( Σ_q (A(r, q) · n(r)) · W(q, j) + b(j) , 0 ).

  The kernel does it block by block over ten blocks of 5000 rows, rounding the scaled rows and the weights to a
  narrow format on the way into the matrix unit, which is the identity on the extended reals; the reference does it
  on the whole arrays.  The shared host computation is never opened: it is carried as the reference's own stages, and
  the kernel's region is shown to find exactly those arrays.  Entry by entry both sides are then the same expression,
  in the same association, so no algebraic law and no finiteness of the inputs is used.

  The three frames are the generated frame runs; the idealization rewrote nothing, so `preserves` is `True`.
-/
import proofs.«101618_j52218212385050_2_alg».proof.Defs
import proofs.«101618_j52218212385050_2_alg».proof.Proof.Gen.Kernel
import proofs.«101618_j52218212385050_2_alg».proof.Proof.Gen.Kernel.Skeleton
import proofs.«101618_j52218212385050_2_alg».proof.Proof.Gen.Kernel.Launch
import proofs.«101618_j52218212385050_2_alg».proof.Proof.Gen.Kernel.Points
import proofs.«101618_j52218212385050_2_alg».proof.Proof.Gen.Kernel.Frame
import proofs.«101618_j52218212385050_2_alg».proof.Proof.Gen.KernelIdeal
import proofs.«101618_j52218212385050_2_alg».proof.Proof.Gen.KernelIdeal.Skeleton
import proofs.«101618_j52218212385050_2_alg».proof.Proof.Gen.KernelIdeal.Launch
import proofs.«101618_j52218212385050_2_alg».proof.Proof.Gen.KernelIdeal.Points
import proofs.«101618_j52218212385050_2_alg».proof.Proof.Gen.KernelIdeal.Frame
import proofs.«101618_j52218212385050_2_alg».proof.Proof.Gen.ReferenceIdeal
import proofs.«101618_j52218212385050_2_alg».proof.Proof.Gen.Pre_finite_inputs
import proofs.«101618_j52218212385050_2_alg».proof.Proof.Gen.KernelIdeal.Value
import proofs.«101618_j52218212385050_2_alg».proof.Proof.Gen.ReferenceIdeal.Run
import proofs.«101618_j52218212385050_2_alg».proof.Proof.Gen.ReferenceIdeal.Read
import proofs.«101618_j52218212385050_2_alg».proof.Proof.HostArrays
import proofs.«101618_j52218212385050_2_alg».proof.Proof.KernelArray
import proofs.«101618_j52218212385050_2_alg».proof.Proof.Reference
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx
open Cert.GcnLayer

/-- The layer of equal arrays is the same array. -/
theorem layer_congr {A A' : (⟨2, ![50000, 128]⟩ : Shape).Idx → EReal} {N N' : (⟨2, ![50000, 1]⟩ : Shape).Idx → EReal}
    {W W' : (⟨2, ![128, 128]⟩ : Shape).Idx → EReal} {B B' : (⟨2, ![1, 128]⟩ : Shape).Idx → EReal}
    (hA : A = A') (hN : N = N') (hW : W = W') (hB : B = B') : layer A N W B = layer A' N' W' B' := by
  subst hA hN hW hB; rfl

/-- The layer of the arrays the kernel's region finds is the reference's last stage of the kernel's arguments:
    the region's first array is the reference's aggregated rows, its second the reference's destination
    normalizer recast as a column, its third the weights as launched, its fourth the bias recast as one row. -/
theorem kernel_result (m : (ℓ : Loc Cert.KernelIdeal.nD Cert.KernelIdeal.τ Cert.KernelIdeal.sig) → Buf (Elt Ideal) ℓ)
    (c : Dev Cert.KernelIdeal.nD) :
    KernelArray.result m c
      = Cert.ReferenceIdeal.Read.val_main_v38 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (layer_congr (HostArrays.aggregated m c) (HostArrays.normalizer m c) (Cert.KernelIdeal.Gen.V_main_arg2 m c)
    (HostArrays.bias m c)).trans
    (Reference.reference_is_layer _ _ _ _ _ _
      (fun r => Cert.LibKeepdims.shapeCast_a_a1_apply _ _ r (0 : Fin 1))
      (fun j => shapeCast_a_1a_apply _ _ (0 : Fin 1) j)).symm

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the reference's last stage of those
    arguments in their result arrays: the kernel by its run and `kernel_result`, the reference by its own run. -/
theorem algebraic : Cert.algebraic_KernelIdeal_ReferenceIdeal := by
  intro m ρ m' ρ' _ hagree
  refine ⟨fun c => Cert.ReferenceIdeal.Read.val_main_v38 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_result m c), (h c).2⟩)
      (KernelArray.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.Read.val_main_v38_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
